-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x64 : Shape := ⟨3, ![64, 1024, 64]⟩
abbrev S128x256 : Shape := ⟨2, ![128, 256]⟩
abbrev S256x1 : Shape := ⟨2, ![256, 1]⟩
abbrev S2x1048576 : Shape := ⟨2, ![2, 1048576]⟩
abbrev S_ : Shape := ⟨0, ![]⟩

class Facts : Prop where
  bcast_S_S64x1024x64 : S_.BroadcastsInDim S64x1024x64 (![] : Fin 0 → Fin S64x1024x64.rank)
  reducesTo_S64x1024x64_S_d0_1_2 : S64x1024x64.ReducesTo [0, 1, 2] S_
  h_S_ : 0 < S_.numel
  bcast_S_S128x256 : S_.BroadcastsInDim S128x256 (![] : Fin 0 → Fin S128x256.rank)
  reducesTo_S128x256_S_d0_1 : S128x256.ReducesTo [0, 1] S_
  bcast_S_S256x1 : S_.BroadcastsInDim S256x1 (![] : Fin 0 → Fin S256x1.rank)
  reducesTo_S256x1_S_d0_1 : S256x1.ReducesTo [0, 1] S_

variable [Facts]

def fn_part1 {F : FTy → Type} [FloatOps F] (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  main_v18

def fn {F : FTy → Type} [FloatOps F] (main_arg0 : FVec F S64x1024x64 .f32) (main_arg1 : FVec F S128x256 .f32) (main_arg2 : FVec F S128x256 .f32) (main_arg3 : FVec F S256x1 .f32) (main_arg4 : IVec S2x1048576 32) : IVec S_ 1 :=
  let main_v0 : FVec F S64x1024x64 .f32 := Host.absf main_arg0
  let main_cst : FVec F S_ .f32 := constant S_ .f32 0x7F800000#32
  let main_v1 : FVec F S64x1024x64 .f32 := broadcastInDim S64x1024x64 ![] bcast_S_S64x1024x64 main_cst
  let main_v2 : IVec S64x1024x64 1 := cmpf .olt main_v0 main_v1
  let main_c : IVec S_ 1 := constantI S_ 1 1#1
  let main_v3 : IVec S_ 1 := (fun x v => Host.reduce IntOp.andi x v reducesTo_S64x1024x64_S_d0_1_2 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256x1 .f32 := Host.absf main_arg3
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_v13 main_v16
-- ==== Kernel.lean ====
abbrev S64x1024x64 : Shape := ⟨3, ![64, 1024, 64]⟩
abbrev S128x256 : Shape := ⟨2, ![128, 256]⟩
abbrev S256x1 : Shape := ⟨2, ![256, 1]⟩
abbrev S2x1048576 : Shape := ⟨2, ![2, 1048576]⟩
abbrev S65536x64 : Shape := ⟨2, ![65536, 64]⟩
abbrev S1x1048576 : Shape := ⟨2, ![1, 1048576]⟩
abbrev S1048576 : Shape := ⟨1, ![1048576]⟩
abbrev S_ : Shape := ⟨0, ![]⟩
abbrev S1048576x1 : Shape := ⟨2, ![1048576, 1]⟩
abbrev S1048576x64 : Shape := ⟨2, ![1048576, 64]⟩
abbrev S1x256 : Shape := ⟨2, ![1, 256]⟩
abbrev S8192x128 : Shape := ⟨2, ![8192, 128]⟩
abbrev S4096x64 : Shape := ⟨2, ![4096, 64]⟩
abbrev S32x128 : Shape := ⟨2, ![32, 128]⟩
abbrev S4096x128 : Shape := ⟨2, ![4096, 128]⟩
abbrev S4096x256 : Shape := ⟨2, ![4096, 256]⟩
abbrev S4096 : Shape := ⟨1, ![4096]⟩
abbrev S4096x1 : Shape := ⟨2, ![4096, 1]⟩

abbrev nBuf : Space → Nat
  | .hbm => 34
  | .vmem => 9
  | .smem => 0
  | _ => 0

abbrev bufTy : (tb : Table) → Fin (tcTables nBuf tb) → BufTy
  | .hbm, ⟨0, _⟩ => ⟨S64x1024x64, .f32⟩
  | .hbm, ⟨1, _⟩ => ⟨S128x256, .f32⟩
  | .hbm, ⟨2, _⟩ => ⟨S128x256, .f32⟩
  | .hbm, ⟨3, _⟩ => ⟨S256x1, .f32⟩
  | .hbm, ⟨4, _⟩ => ⟨S2x1048576, .i32⟩
  | .hbm, ⟨5, _⟩ => ⟨S65536x64, .f32⟩
  | .hbm, ⟨6, _⟩ => ⟨S65536x64, .bf16⟩
  | .hbm, ⟨7, _⟩ => ⟨S1x1048576, .i32⟩
  | .hbm, ⟨8, _⟩ => ⟨S1048576, .i32⟩
  | .hbm, ⟨9, _⟩ => ⟨S1x1048576, .i32⟩
  | .hbm, ⟨10, _⟩ => ⟨S1048576, .i32⟩
  | .hbm, ⟨11, _⟩ => ⟨S_, .i32⟩
  | .hbm, ⟨12, _⟩ => ⟨S1048576, .i32⟩
  | .hbm, ⟨13, _⟩ => ⟨S1048576, .i1⟩
  | .hbm, ⟨14, _⟩ => ⟨S_, .i32⟩
  | .hbm, ⟨15, _⟩ => ⟨S1048576, .i32⟩
  | .hbm, ⟨16, _⟩ => ⟨S1048576, .i32⟩
  | .hbm, ⟨17, _⟩ => ⟨S1048576, .i32⟩
  | .hbm, ⟨18, _⟩ => ⟨S1048576x1, .i32⟩
  | .hbm, ⟨19, _⟩ => ⟨S1048576x64, .bf16⟩
  | .hbm, ⟨20, _⟩ => ⟨S_, .i32⟩
  | .hbm, ⟨21, _⟩ => ⟨S1048576, .i32⟩
  | .hbm, ⟨22, _⟩ => ⟨S1048576, .i1⟩
  | .hbm, ⟨23, _⟩ => ⟨S_, .i32⟩
  | .hbm, ⟨24, _⟩ => ⟨S1048576, .i32⟩
  | .hbm, ⟨25, _⟩ => ⟨S1048576, .i32⟩
  | .hbm, ⟨26, _⟩ => ⟨S1048576, .i32⟩
  | .hbm, ⟨27, _⟩ => ⟨S1048576x1, .i32⟩
  | .hbm, ⟨28, _⟩ => ⟨S1048576x64, .bf16⟩
  | .hbm, ⟨29, _⟩ => ⟨S128x256, .bf16⟩
  | .hbm, ⟨30, _⟩ => ⟨S128x256, .bf16⟩
  | .hbm, ⟨31, _⟩ => ⟨S1x256, .f32⟩
  | .hbm, ⟨32, _⟩ => ⟨S8192x128, .f32⟩
  | .hbm, ⟨33, _⟩ => ⟨S1048576, .f32⟩
  | .local _ .vmem, ⟨0, _⟩ => ⟨S4096x64, .bf16⟩
  | .local _ .vmem, ⟨1, _⟩ => ⟨S4096x64, .bf16⟩
  | .local _ .vmem, ⟨2, _⟩ => ⟨S4096x64, .bf16⟩
  | .local _ .vmem, ⟨3, _⟩ => ⟨S4096x64, .bf16⟩
  | .local _ .vmem, ⟨4, _⟩ => ⟨S128x256, .bf16⟩
  | .local _ .vmem, ⟨5, _⟩ => ⟨S128x256, .bf16⟩
  | .local _ .vmem, ⟨6, _⟩ => ⟨S1x256, .f32⟩
  | .local _ .vmem, ⟨7, _⟩ => ⟨S32x128, .f32⟩
  | .local _ .vmem, ⟨8, _⟩ => ⟨S32x128, .f32⟩
  | _, _ => ⟨S64x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64x1024x64_S65536x64 : S64x1024x64.ShapeCasts S65536x64
  bitsLt_bf16_f32 : FTy.bits .bf16 < FTy.bits .f32
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  bcast_S_S1048576 : S_.BroadcastsInDim S1048576 (![] : Fin 0 → Fin S1048576.rank)
  bcast_S1048576_S1048576x1_0 : S1048576.BroadcastsInDim S1048576x1 (![0] : Fin 1 → Fin S1048576x1.rank)
  transposes_S256x1_S1x256_1_0 : S256x1.Transposes [1, 0] S1x256
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  concatenates_S4096x64_S4096x64_S4096x128_d1 : Shape.Concatenates [S4096x64, S4096x64] S4096x128 1
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  reduces_S4096x256_S4096 : S4096x256.Reduces [1] S4096
  shapeCasts_S4096_S4096x1 : S4096.ShapeCasts S4096x1
  shapeCasts_S4096x1_S32x128 : S4096x1.ShapeCasts S32x128
  inb_S32x128_S32x128_0_0 : ∀ a, (![0, 0] : Fin 2 → Nat) a + S32x128.size a ≤ S32x128.size a
  h_S32x128 : 0 < S32x128.numel
  shapeCasts_S8192x128_S1048576 : S8192x128.ShapeCasts S1048576
  gather_S65536x64_S1048576x1_S1048576x64_1_0_n_n_0_1_164_wf : GatherDims.WF S65536x64 S1048576x1 S1048576x64 [1] [0] [] [0] [] 1 ![1, 64]
  dot_S4096x128_S128x256_S4096x256_1_0_0_1_n_n_wf : DotDims.WF S4096x128 S128x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S1048576x64.size a
  hwx0_0 : ∀ i : grid0.Coords, EltTy.bits .bf16 = 32 ∨ (Rect.block (s := S1048576x64) S4096x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S1048576x64.size a
  hwx0_1 : ∀ i : grid0.Coords, EltTy.bits .bf16 = 32 ∨ (Rect.block (s := S1048576x64) S4096x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S8192x128.size a
  hwx0_5 : ∀ i : grid0.Coords, EltTy.bits .f32 = 32 ∨ (Rect.block (s := S8192x128) S32x128.size (cc0_transform_5 i) (hinb0_5 i)).WholeWords (EltTy.packing .f32)

variable [Facts₀]

def gather_S65536x64_S1048576x1_S1048576x64_1_0_n_n_0_1_164 : GatherDims S65536x64 S1048576x1 S1048576x64 where
  offsetDims := [1]
  collapsedSliceDims := [0]
  operandBatchingDims := []
  startIndicesBatchingDims := []
  startIndexMap := [0]
  indexVectorDim := 1
  sliceSizes := ![1, 64]
  wf := gather_S65536x64_S1048576x1_S1048576x64_1_0_n_n_0_1_164_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf

abbrev win0_0 : Pipeline.Window sig grid0 :=
  Pipeline.Window.ofSpec (Memref.whole main_v12) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S32x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x1024x64 : Shape := ⟨3, ![64, 1024, 64]⟩
abbrev S128x256 : Shape := ⟨2, ![128, 256]⟩
abbrev S256x1 : Shape := ⟨2, ![256, 1]⟩
abbrev S2x1048576 : Shape := ⟨2, ![2, 1048576]⟩
abbrev S65536x64 : Shape := ⟨2, ![65536, 64]⟩
abbrev S1x1048576 : Shape := ⟨2, ![1, 1048576]⟩
abbrev S1048576 : Shape := ⟨1, ![1048576]⟩
abbrev S_ : Shape := ⟨0, ![]⟩
abbrev S1048576x1 : Shape := ⟨2, ![1048576, 1]⟩
abbrev S1048576x64 : Shape := ⟨2, ![1048576, 64]⟩
abbrev S1048576x128 : Shape := ⟨2, ![1048576, 128]⟩
abbrev S1048576x256 : Shape := ⟨2, ![1048576, 256]⟩

abbrev nBuf : Space → Nat
  | .hbm => 43
  | .vmem => 0
  | .smem => 0
  | _ => 0

abbrev bufTy : (tb : Table) → Fin (tcTables nBuf tb) → BufTy
  | .hbm, ⟨0, _⟩ => ⟨S64x1024x64, .f32⟩
  | .hbm, ⟨1, _⟩ => ⟨S128x256, .f32⟩
  | .hbm, ⟨2, _⟩ => ⟨S128x256, .f32⟩
  | .hbm, ⟨3, _⟩ => ⟨S256x1, .f32⟩
  | .hbm, ⟨4, _⟩ => ⟨S2x1048576, .i32⟩
  | .hbm, ⟨5, _⟩ => ⟨S65536x64, .f32⟩
  | .hbm, ⟨6, _⟩ => ⟨S1x1048576, .i32⟩
  | .hbm, ⟨7, _⟩ => ⟨S1048576, .i32⟩
  | .hbm, ⟨8, _⟩ => ⟨S1x1048576, .i32⟩
  | .hbm, ⟨9, _⟩ => ⟨S1048576, .i32⟩
  | .hbm, ⟨10, _⟩ => ⟨S_, .i32⟩
  | .hbm, ⟨11, _⟩ => ⟨S1048576, .i32⟩
  | .hbm, ⟨12, _⟩ => ⟨S1048576, .i1⟩
  | .hbm, ⟨13, _⟩ => ⟨S_, .i32⟩
  | .hbm, ⟨14, _⟩ => ⟨S1048576, .i32⟩
  | .hbm, ⟨15, _⟩ => ⟨S1048576, .i32⟩
  | .hbm, ⟨16, _⟩ => ⟨S1048576, .i32⟩
  | .hbm, ⟨17, _⟩ => ⟨S1048576x1, .i32⟩
  | .hbm, ⟨18, _⟩ => ⟨S1048576x64, .f32⟩
  | .hbm, ⟨19, _⟩ => ⟨S_, .i32⟩
  | .hbm, ⟨20, _⟩ => ⟨S1048576, .i32⟩
  | .hbm, ⟨21, _⟩ => ⟨S1048576, .i1⟩
  | .hbm, ⟨22, _⟩ => ⟨S_, .i32⟩
  | .hbm, ⟨23, _⟩ => ⟨S1048576, .i32⟩
  | .hbm, ⟨24, _⟩ => ⟨S1048576, .i32⟩
  | .hbm, ⟨25, _⟩ => ⟨S1048576, .i32⟩
  | .hbm, ⟨26, _⟩ => ⟨S1048576x1, .i32⟩
  | .hbm, ⟨27, _⟩ => ⟨S1048576x64, .f32⟩
  | .hbm, ⟨28, _⟩ => ⟨S1048576x128, .f32⟩
  | .hbm, ⟨29, _⟩ => ⟨S1048576x256, .f32⟩
  | .hbm, ⟨30, _⟩ => ⟨S1048576x256, .f32⟩
  | .hbm, ⟨31, _⟩ => ⟨S1048576x256, .f32⟩
  | .hbm, ⟨32, _⟩ => ⟨S_, .f32⟩
  | .hbm, ⟨33, _⟩ => ⟨S1048576x256, .f32⟩
  | .hbm, ⟨34, _⟩ => ⟨S1048576x256, .f32⟩
  | .hbm, ⟨35, _⟩ => ⟨S_, .f32⟩
  | .hbm, ⟨36, _⟩ => ⟨S1048576x256, .f32⟩
  | .hbm, ⟨37, _⟩ => ⟨S1048576x256, .f32⟩
  | .hbm, ⟨38, _⟩ => ⟨S1048576x256, .f32⟩
  | .hbm, ⟨39, _⟩ => ⟨S1048576x256, .f32⟩
  | .hbm, ⟨40, _⟩ => ⟨S1048576x256, .f32⟩
  | .hbm, ⟨41, _⟩ => ⟨S1048576x1, .f32⟩
  | .hbm, ⟨42, _⟩ => ⟨S1048576, .f32⟩
  | _, _ => ⟨S64x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]

class Facts₀ : Prop where
  shapeCasts_S64x1024x64_S65536x64 : S64x1024x64.ShapeCasts S65536x64
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  bcast_S_S1048576 : S_.BroadcastsInDim S1048576 (![] : Fin 0 → Fin S1048576.rank)
  bcast_S1048576_S1048576x1_0 : S1048576.BroadcastsInDim S1048576x1 (![0] : Fin 1 → Fin S1048576x1.rank)
  concatenates_S1048576x64_S1048576x64_S1048576x128_d1 : Shape.Concatenates [S1048576x64, S1048576x64] S1048576x128 1
  bcast_S_S1048576x256 : S_.BroadcastsInDim S1048576x256 (![] : Fin 0 → Fin S1048576x256.rank)
  shapeCasts_S1048576x1_S1048576 : S1048576x1.ShapeCasts S1048576
  gather_S65536x64_S1048576x1_S1048576x64_1_0_n_n_0_1_164_wf : GatherDims.WF S65536x64 S1048576x1 S1048576x64 [1] [0] [] [0] [] 1 ![1, 64]
  dot_S1048576x128_S128x256_S1048576x256_1_0_0_1_n_n_wf : DotDims.WF S1048576x128 S128x256 S1048576x256 [1] [0] [0] [1] [] []
  dot_S1048576x256_S256x1_S1048576x1_1_0_0_1_n_n_wf : DotDims.WF S1048576x256 S256x1 S1048576x1 [1] [0] [0] [1] [] []

variable [Facts₀]

def gather_S65536x64_S1048576x1_S1048576x64_1_0_n_n_0_1_164 : GatherDims S65536x64 S1048576x1 S1048576x64 where
  offsetDims := [1]
  collapsedSliceDims := [0]
  operandBatchingDims := []
  startIndicesBatchingDims := []
  startIndexMap := [0]
  indexVectorDim := 1
  sliceSizes := ![1, 64]
  wf := gather_S65536x64_S1048576x1_S1048576x64_1_0_n_n_0_1_164_wf
def dot_S1048576x128_S128x256_S1048576x256_1_0_0_1_n_n : DotDims S1048576x128 S128x256 S1048576x256 where
  lhsContracting := [1]
  rhsContracting := [0]
  lhsNonContracting := [0]
  rhsNonContracting := [1]
  lhsBatch := []
  rhsBatch := []
  wf := dot_S1048576x128_S128x256_S1048576x256_1_0_0_1_n_n_wf
def dot_S1048576x256_S256x1_S1048576x1_1_0_0_1_n_n : DotDims S1048576x256 S256x1 S1048576x1 where
  lhsContracting := [1]
  rhsContracting := [0]
  lhsNonContracting := [0]
  rhsNonContracting := [1]
  lhsBatch := []
  rhsBatch := []
  wf := dot_S1048576x256_S256x1_S1048576x1_1_0_0_1_n_n_wf

class Facts : Prop extends Facts₀ where

variable [Facts]
-- ==== Proof.EdgeMlp.lean ====
/-
  The function both programs compute, stated once over plain index types.

  An edge `e` carries two rows of 64 features, `a` (the row gathered for its first endpoint) and `b` (for its
  second). Laid side by side they form one row of 128 lanes (`joined`). With weight matrices `Wg`, `Wi` of shape
  [128, 256] and an output column `wo` of 256 entries, the edge's value is

      ∑ h, (g h · logistic (g h) · u h) · wo h,   g h = ∑ k, joined k · Wg k h,   u h = ∑ k, joined k · Wi k h,

  on the extended reals: `g · logistic g` is the SiLU of the gate pre-activation, `u` the value pre-activation.
  Only commutative-monoid sums and products of the same factors in the same order occur, so nothing here
  needs the inputs to be finite.
-/
import Idealize.ShloMosaic.PureOps.Ideal
import Idealize.ShloMosaic.PureOps.Ideal.Laws
import Idealize.ShloMosaic.Lib.ValueIdx
import Idealize.ShloMosaic.Lib.Pipeline.Value

noncomputable section

namespace Cert.EdgeMlp

open Idealize.ShloMosaic Idealize.ShloMosaic.ValueIdx

/-- Lane `k` of the 128-lane row made of a 64-lane row `a` followed by a 64-lane row `b`. -/
def joined (a b : Fin 64 → EReal) (k : Fin 128) : EReal :=
  if h : k.val < 64 then a ⟨k.val, h⟩ else b ⟨k.val - 64, by have := k.isLt; omega⟩

/-- The gated unit: SiLU of the gate pre-activation `g` (that is `g · logistic g`) times the value pre-activation `u`. -/
def gated (g u : EReal) : EReal := (g * Ideal.logistic g) * u

/-- One edge's value from its two feature rows, the two [128, 256] weight matrices and the output column. -/
def edge (a b : Fin 64 → EReal) (Wg Wi : (⟨2, ![128, 256]⟩ : Shape).Idx → EReal) (wo : Fin 256 → EReal) : EReal :=
  ∑ h : Fin 256, gated (∑ k : Fin 128, joined a b k * Wg (ix2 k h)) (∑ k : Fin 128, joined a b k * Wi (ix2 k h)) * wo h

/-- The value of edge `e` from the two gathered feature arrays [E, 64], the weights, and the [256, 1] output weights. -/
def edgeOf (A B : (⟨2, ![1048576, 64]⟩ : Shape).Idx → EReal) (Wg Wi : (⟨2, ![128, 256]⟩ : Shape).Idx → EReal)
    (Wo : (⟨2, ![256, 1]⟩ : Shape).Idx → EReal) (e : Fin 1048576) : EReal :=
  edge (fun d => A (ix2 e d)) (fun d => B (ix2 e d)) Wg Wi (fun h => Wo (ix2 h (0 : Fin 1)))

/-- The whole result: one value per edge. -/
def result (A B : (⟨2, ![1048576, 64]⟩ : Shape).Idx → EReal) (Wg Wi : (⟨2, ![128, 256]⟩ : Shape).Idx → EReal)
    (Wo : (⟨2, ![256, 1]⟩ : Shape).Idx → EReal) : (⟨1, ![1048576]⟩ : Shape).Idx → EReal :=
  fun i => edgeOf A B Wg Wi Wo (i 0)

/-- The result at edge `e`, spelt out. -/
theorem result_apply (A B : (⟨2, ![1048576, 64]⟩ : Shape).Idx → EReal) (Wg Wi : (⟨2, ![128, 256]⟩ : Shape).Idx → EReal)
    (Wo : (⟨2, ![256, 1]⟩ : Shape).Idx → EReal) (e : Fin 1048576) :
    result A B Wg Wi Wo (ix1 e)
      = ∑ h : Fin 256, gated (∑ k : Fin 128, joined (fun d => A (ix2 e d)) (fun d => B (ix2 e d)) k * Wg (ix2 k h))
          (∑ k : Fin 128, joined (fun d => A (ix2 e d)) (fun d => B (ix2 e d)) k * Wi (ix2 k h)) * Wo (ix2 h (0 : Fin 1)) := rfl

/-- The logistic function is `1 / (1 + e^(-x))` in the host's spelling too: quotient of one by one plus the
    exponential of the negation. -/
theorem logistic_host (x : EReal) : Ideal.div 1 (1 + Ideal.exp (-x)) = Ideal.logistic x := rfl

/-- Two [R, 64] arrays joined along the lanes, read at row `r`, lane `k`: lane `k` of the row made of the two rows. -/
theorem concat_lanes_apply {R : Nat} (x₁ x₂ : (⟨2, ![R, 64]⟩ : Shape).Idx → EReal)
    (h : Shape.Concatenates [(⟨2, ![R, 64]⟩ : Shape), (⟨2, ![R, 64]⟩ : Shape)] (⟨2, ![R, 128]⟩ : Shape) 1)
    (r : Fin R) (k : Fin 128) :
    concatenate (⟨2, ![R, 128]⟩ : Shape) 1 [⟨(⟨2, ![R, 64]⟩ : Shape), x₁⟩, ⟨(⟨2, ![R, 64]⟩ : Shape), x₂⟩] h (ix2 r k)
      = joined (fun d => x₁ (ix2 r d)) (fun d => x₂ (ix2 r d)) k := by
  unfold joined
  by_cases hk : k.val < 64
  · rw [dif_pos hk]
    exact concatenate_pair_apply_left (1 : Fin 2) x₁ x₂ h (ix2 r k) rfl (ix2 r ⟨k.val, hk⟩)
      (fun b => match b with | ⟨0, _⟩ => rfl | ⟨1, _⟩ => rfl)
  · rw [dif_neg hk]
    refine concatenate_pair_apply_right (1 : Fin 2) x₁ x₂ h (ix2 r k) rfl rfl
      (ix2 r ⟨k.val - 64, by have := k.isLt; omega⟩) (fun b hb => ?_) ?_
    · match b with
      | ⟨0, _⟩ => rfl
      | ⟨1, _⟩ => exact absurd rfl hb
    · show (k.val - 64) + 64 = k.val
      omega

end Cert.EdgeMlp

end
-- ==== Proof.ReferenceValue.lean ====
/-
  The reference program computes the edge function of `EdgeMlp`.

  Read one operation at a time, the reference's result at edge `e` is the contraction over the 256 hidden units of
  `(g · (1 / (1 + e^(-g))) · u) · w_out`, where `g` and `u` at hidden unit `h` are the contractions over the 128 joined
  lanes of the edge's two gathered feature rows against column `h` of the gate and value weights. The quotient is the
  logistic function, so this is `EdgeMlp.result` of the two gathered arrays. The gathers themselves are not opened:
  they enter only as the two [E, 64] arrays they produce.
-/
import proofs.«125751_j19799799234919_2_alg».proof.Proof.Gen.ReferenceIdeal.Read
import proofs.«125751_j19799799234919_2_alg».proof.Proof.EdgeMlp

noncomputable section

namespace Cert.ReferenceIdeal.RefValue

open Cert.ReferenceIdeal Cert.ReferenceIdeal.Gen Cert.ReferenceIdeal.Read Idealize.ShloMosaic Idealize.ShloMosaic.ValueIdx Cert.EdgeMlp

/-- The f32 pattern of `1.0` denotes the extended real one. -/
theorem one_f32 : Ideal.ofBits .f32 0x3F800000#32 = 1 := IdealRules.sign_bit.ideal_onePat .f32

/-- A contraction of the joined feature array against a [128, 256] weight matrix, at edge `e` and hidden unit `h`:
    the sum over the 128 lanes of the edge's joined row times column `h` of the weights. -/
theorem contraction_joined (x0 : (⟨S64x1024x64, .f32⟩ : BufTy).Contents (Elt Ideal)) (x4 : (⟨S2x1048576, .i32⟩ : BufTy).Contents (Elt Ideal))
    (w : (⟨S128x256, .f32⟩ : BufTy).Contents (Elt Ideal)) (e : Fin 1048576) (h : Fin 256) :
    (∑ k : Fin 128, (val_main_v19 (F := Ideal) x0 x4) (lidx_main_v20 (ix2 e h) k) * w (ridx_main_v20 (ix2 e h) k))
      = ∑ k : Fin 128, joined (fun d => val_main_v11 (F := Ideal) x0 x4 (ix2 e d)) (fun d => val_main_v18 (F := Ideal) x0 x4 (ix2 e d)) k * w (ix2 k h) := by
  refine Finset.sum_congr rfl fun k _ => ?_
  have el : lidx_main_v20 (ix2 e h) k = ix2 e k := funext fun a => Fin.ext (by
    match a with
    | ⟨0, _⟩ => rfl
    | ⟨1, _⟩ => rfl)
  have er : ridx_main_v20 (ix2 e h) k = ix2 k h := funext fun a => Fin.ext (by
    match a with
    | ⟨0, _⟩ => rfl
    | ⟨1, _⟩ => rfl)
  rw [el, er]
  refine congrArg (· * w (ix2 k h)) ?_
  unfold val_main_v19
  exact concat_lanes_apply _ _ concatenates_S1048576x64_S1048576x64_S1048576x128_d1 e k

/-- The reference's result array is the edge function of its two gathered feature arrays and the weight arguments. -/
theorem reference_is_edgeMlp (x0 : (⟨S64x1024x64, .f32⟩ : BufTy).Contents (Elt Ideal)) (x1 x2 : (⟨S128x256, .f32⟩ : BufTy).Contents (Elt Ideal))
    (x3 : (⟨S256x1, .f32⟩ : BufTy).Contents (Elt Ideal)) (x4 : (⟨S2x1048576, .i32⟩ : BufTy).Contents (Elt Ideal)) :
    val_main_v25 (F := Ideal) x0 x1 x2 x3 x4
      = result (val_main_v11 (F := Ideal) x0 x4) (val_main_v18 (F := Ideal) x0 x4) x1 x2 x3 := by
  funext i
  obtain ⟨e, rfl⟩ : ∃ e : Fin 1048576, i = ix1 e := ⟨i 0, eq_ix1 i⟩
  rw [val_main_v25_apply, val_main_v24_apply, result_apply]
  refine Finset.sum_congr rfl fun h _ => ?_
  have e1 : lidx_main_v24 (idx_main_v25 (ix1 e)) h = ix2 e h := funext fun a => Fin.ext (by
    match a with
    | ⟨0, _⟩ => exact Nat.div_one _
    | ⟨1, _⟩ => rfl)
  have e2 : ridx_main_v24 (idx_main_v25 (ix1 e)) h = ix2 h (0 : Fin 1) := funext fun a => Fin.ext (by
    match a with
    | ⟨0, _⟩ => rfl
    | ⟨1, _⟩ => rfl)
  rw [e1, e2]
  refine congrArg (· * x3 (ix2 h (0 : Fin 1))) ?_
  rw [val_main_v23_apply, val_main_v21_apply, val_main_call0_v5_apply, val_main_call0_v4_apply, val_main_call0_cst_0_apply,
    val_main_call0_v3_apply, val_main_call0_v2_apply, val_main_call0_cst_apply, val_main_call0_v1_apply, val_main_call0_v0_apply,
    val_main_v20_apply, val_main_v22_apply]
  rw [contraction_joined x0 x4 x1 e h]
  rw [show (∑ k : Fin 128, (val_main_v19 (F := Ideal) x0 x4) (lidx_main_v22 (ix2 e h) k) * x2 (ridx_main_v22 (ix2 e h) k))
      = ∑ k : Fin 128, joined (fun d => val_main_v11 (F := Ideal) x0 x4 (ix2 e d)) (fun d => val_main_v18 (F := Ideal) x0 x4 (ix2 e d)) k * x2 (ix2 k h)
      from contraction_joined x0 x4 x2 e h]
  unfold gated
  simp only [Ideal.mulf_def, Ideal.hostDivf_def, Ideal.addf_def, Ideal.hostUnary_exp_def, Ideal.hostNegf_def, Ideal.negf_def,
    Ideal.ofBits_def, one_f32, logistic_host]

end Cert.ReferenceIdeal.RefValue

end
-- ==== Proof.KernelBlock.lean ====
/-
  What the kernel body stores, read at one index.

  At a grid point the body holds a [4096, 64] block of each gathered feature array, the two [128, 256] weight
  matrices and the [1, 256] output row. It joins the two feature blocks along the lanes, contracts the joined
  [4096, 128] block against each weight matrix, forms `g · logistic g · u`, multiplies by the output row broadcast over
  the rows, sums each row's 256 lanes, and lays the 4096 row sums out as a [32, 128] block: entry (p, q) of that block
  is the sum of row 128·p + q. So entry (p, q) is the edge function of `EdgeMlp` applied to row 128·p + q of the two
  feature blocks.
-/
import proofs.«125751_j19799799234919_2_alg».proof.Proof.Gen.KernelIdeal.Skeleton
import proofs.«125751_j19799799234919_2_alg».proof.Proof.EdgeMlp
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx Cert.EdgeMlp

/-- The logistic of a vector, lane by lane. -/
theorem logistic_apply {s : Shape} {φ : FTy} (a : FVec Ideal s φ) (i : s.Idx) : logistic a i = Ideal.logistic (a i) := rfl

/-- The sum over the 256 lanes of each row of a [4096, 256] value, laid out [4096] → [4096, 1] → [32, 128]: entry (p, q)
    is the sum of row 128·p + q. -/
theorem rowsum_relaid (w : FVec Ideal S4096x256 .f32) (p : Fin 32) (q : Fin 128) (r : Fin 4096) (hr : r.val = p.val * 128 + q.val) :
    shapeCast S32x128 (shapeCast S4096x1 (multiReduction .add [1] S4096 w 0x00000000#32 reduces_S4096x256_S4096 (.inl rfl) rfl)
        shapeCasts_S4096_S4096x1) shapeCasts_S4096x1_S32x128 (ix2 p q)
      = ∑ h : Fin 256, w (ix2 r h) := by
  refine (shapeCast_apply _ shapeCasts_S4096x1_S32x128 (ix2 p q) (ix2 r (0 : Fin 1)) ?_).trans ?_
  · rw [Shape.rowMajor_val_two, Shape.rowMajor_val_two]
    show r.val * 1 + 0 = p.val * 128 + q.val
    omega
  refine (shapeCast_apply _ shapeCasts_S4096_S4096x1 (ix2 r (0 : Fin 1)) (ix1 r) ?_).trans ?_
  · rw [Shape.rowMajor_val_one, Shape.rowMajor_val_two]
    show r.val = r.val * 1 + 0
    omega
  refine (Ideal.multiReduction_add_single w 0x00000000#32 reduces_S4096x256_S4096 _ _ (ix1 r)).trans ?_
  refine Finset.sum_congr rfl fun h _ => congrArg w ?_
  funext a
  apply Fin.ext
  match a with
  | ⟨0, _⟩ => rfl
  | ⟨1, _⟩ => rfl

/-- The operand indices of the [4096, 128] × [128, 256] product at an output index and a contraction index: the left
    operand at (row, contraction), the right at (contraction, column). -/
theorem lhs_0 (i : S4096x256.Idx) (q : dot_S4096x128_S128x256_S4096x256_1_0_0_1_n_n.contr.Idx) : (dot_S4096x128_S128x256_S4096x256_1_0_0_1_n_n.lhsIdx i q 0).val = (i 0).val := by
  unfold DotDims.lhsIdx
  rw [dif_neg (show ¬(0 : Fin S4096x128.rank) ∈ dot_S4096x128_S128x256_S4096x256_1_0_0_1_n_n.lhsBatch by decide), dif_pos (show (0 : Fin S4096x128.rank) ∈ dot_S4096x128_S128x256_S4096x256_1_0_0_1_n_n.lhsNonContracting by decide)]
  rfl
theorem lhs_1 (i : S4096x256.Idx) (q : dot_S4096x128_S128x256_S4096x256_1_0_0_1_n_n.contr.Idx) : (dot_S4096x128_S128x256_S4096x256_1_0_0_1_n_n.lhsIdx i q 1).val = (q ⟨0, by decide⟩).val :=
  dot_S4096x128_S128x256_S4096x256_1_0_0_1_n_n.lhsIdx_val_of_single rfl i q
theorem rhs_0 (i : S4096x256.Idx) (q : dot_S4096x128_S128x256_S4096x256_1_0_0_1_n_n.contr.Idx) : (dot_S4096x128_S128x256_S4096x256_1_0_0_1_n_n.rhsIdx i q 0).val = (q ⟨0, by decide⟩).val :=
  dot_S4096x128_S128x256_S4096x256_1_0_0_1_n_n.rhsIdx_val_of_single rfl i q
theorem rhs_1 (i : S4096x256.Idx) (q : dot_S4096x128_S128x256_S4096x256_1_0_0_1_n_n.contr.Idx) : (dot_S4096x128_S128x256_S4096x256_1_0_0_1_n_n.rhsIdx i q 1).val = (i 1).val := by
  unfold DotDims.rhsIdx
  rw [dif_neg (show ¬(1 : Fin S128x256.rank) ∈ dot_S4096x128_S128x256_S4096x256_1_0_0_1_n_n.rhsBatch by decide), dif_pos (show (1 : Fin S128x256.rank) ∈ dot_S4096x128_S128x256_S4096x256_1_0_0_1_n_n.rhsNonContracting by decide)]
  rfl

/-- The matrix product of a [4096, 128] block with a [128, 256] matrix into a zero accumulator, at row `r` and column
    `h`: the sum over the 128 lanes of row `r` times column `h`. -/
theorem matmul_rows (l : FVec Ideal S4096x128 .bf16) (w : FVec Ideal S128x256 .bf16) (r : Fin 4096) (h : Fin 256) :
    matmul dot_S4096x128_S128x256_S4096x256_1_0_0_1_n_n none l w (constant S4096x256 .f32 0x00000000#32) (ix2 r h)
      = ∑ k : Fin 128, l (ix2 r k) * w (ix2 k h) := by
  refine (Ideal.matmul_constant_zero_apply dot_S4096x128_S128x256_S4096x256_1_0_0_1_n_n none l w (ix2 r h)).trans ?_
  rw [← Equiv.sum_comp (contrEquiv1 dot_S4096x128_S128x256_S4096x256_1_0_0_1_n_n 128 rfl rfl).symm]
  refine Finset.sum_congr rfl fun k _ => ?_
  have hk := contrEquiv1_symm_val dot_S4096x128_S128x256_S4096x256_1_0_0_1_n_n 128 rfl rfl k
  have el : dot_S4096x128_S128x256_S4096x256_1_0_0_1_n_n.lhsIdx (ix2 r h) ((contrEquiv1 dot_S4096x128_S128x256_S4096x256_1_0_0_1_n_n 128 rfl rfl).symm k) = ix2 r k := funext fun a => Fin.ext (by
    match a with
    | ⟨0, _⟩ => exact lhs_0 _ _
    | ⟨1, _⟩ => exact (lhs_1 _ _).trans hk)
  have er : dot_S4096x128_S128x256_S4096x256_1_0_0_1_n_n.rhsIdx (ix2 r h) ((contrEquiv1 dot_S4096x128_S128x256_S4096x256_1_0_0_1_n_n 128 rfl rfl).symm k) = ix2 k h := funext fun a => Fin.ext (by
    match a with
    | ⟨0, _⟩ => exact (rhs_0 _ _).trans hk
    | ⟨1, _⟩ => exact rhs_1 _ _)
  rw [el, er]

/-- A contraction of the joined block against a weight matrix, at row `r` and hidden unit `h`, in the spelling of
    `EdgeMlp`: the joined row of the two feature rows against column `h`. (The body recasts each loaded block to its own
    shape before joining them; such a cast is the identity.) -/
theorem contraction_joined (x0 x1 : FVec Ideal S4096x64 .bf16) (w : FVec Ideal S128x256 .bf16) (r : Fin 4096) (h : Fin 256) :
    matmul dot_S4096x128_S128x256_S4096x256_1_0_0_1_n_n none (concatenate S4096x128 1 [⟨S4096x64, shapeCast S4096x64 x0 shapeCasts_S4096x64_S4096x64⟩,
          ⟨S4096x64, shapeCast S4096x64 x1 shapeCasts_S4096x64_S4096x64⟩] concatenates_S4096x64_S4096x64_S4096x128_d1) w
        (constant S4096x256 .f32 0x00000000#32) (ix2 r h)
      = ∑ k : Fin 128, joined (fun d => x0 (ix2 r d)) (fun d => x1 (ix2 r d)) k * w (ix2 k h) := by
  have e0 : shapeCast S4096x64 x0 shapeCasts_S4096x64_S4096x64 = x0 := shapeCast_self x0 _
  have e1 : shapeCast S4096x64 x1 shapeCasts_S4096x64_S4096x64 = x1 := shapeCast_self x1 _
  refine (matmul_rows _ w r h).trans ?_
  refine Finset.sum_congr rfl fun k _ => congrArg (· * w (ix2 k h)) ?_
  refine (concat_lanes_apply _ _ concatenates_S4096x64_S4096x64_S4096x128_d1 r k).trans ?_
  rw [e0, e1]

/-- ENTRY (p, q) OF THE STORED BLOCK is the edge function of row 128·p + q of the two feature blocks. -/
theorem block_is_edge (x0 x1 : Vec Ideal S4096x64 .bf16) (x2 x3 : Vec Ideal S128x256 .bf16) (x4 : Vec Ideal S1x256 .f32)
    (p : Fin 32) (q : Fin 128) (r : Fin 4096) (hr : r.val = p.val * 128 + q.val) :
    k0_pay1 x0 x1 x2 x3 x4 (ix2 p q)
      = edge (fun d => x0 (ix2 r d)) (fun d => x1 (ix2 r d)) x2 x3 (fun h => x4 (ix2 (0 : Fin 1) h)) := by
  unfold k0_pay1
  simp only [shapeCast_self]
  refine (rowsum_relaid _ p q r hr).trans ?_
  unfold edge
  refine Finset.sum_congr rfl fun h _ => ?_
  have hA := contraction_joined x0 x1 x2 r h
  have hB := contraction_joined x0 x1 x3 r h
  have hC := broadcastTo_1b_ab_apply x4 broadcasts_S1x256_S4096x256 r h
  rw [mulf_apply, mulf_apply, mulf_apply, logistic_apply]
  unfold gated
  exact congrArg₂ (· * ·) (congrArg₂ (· * ·) (congrArg₂ (· * ·) hA (congrArg Ideal.logistic hA)) hB) hC

end Cert.KernelIdeal.Block

end
-- ==== Proof.KernelArray.lean ====
/-
  From the blocks the kernel writes to its whole result.

  The grid has 256 points. At point `t` the two feature windows hold rows 4096·t … 4096·t + 4095 of the gathered feature
  arrays, the weight windows hold the whole weight matrices and the whole output row, and the body's [32, 128] block is
  written back as rows 32·t … 32·t + 31 of a [8192, 128] array. Entry (p, q) of the block is the edge function of row
  128·p + q of the feature blocks, that is of edge 4096·t + 128·p + q = 128·(32·t + p) + q. So entry (i₀, i₁) of the
  [8192, 128] array is the value of edge 128·i₀ + i₁; the 256 blocks cover the array, and the reshape to [1048576] that
  follows the kernel puts the value of edge `e` at position `e`.
-/
import proofs.«125751_j19799799234919_2_alg».proof.Proof.Gen.KernelIdeal.Frame
import proofs.«125751_j19799799234919_2_alg».proof.Proof.KernelBlock
import Idealize.ShloMosaic.Lib.Pipeline.Value
import Idealize.ShloMosaic.Lib.StableHlo.Run
import Idealize.ShloMosaic.Lib.ValueLayout

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.EdgeMlp
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the feature windows and the output window move with the grid point along
    the rows; the weight windows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The edge whose value sits at entry (i₀, i₁) of the [8192, 128] array. -/
def edgeAt (i : S8192x128.Idx) : Fin 1048576 :=
  ⟨(i 0).val * 128 + (i 1).val, by have h0 : (i 0).val < 8192 := (i 0).isLt; have h1 : (i 1).val < 128 := (i 1).isLt; omega⟩

/-- What the output window's array holds after the run: at (i₀, i₁) the value of edge 128·i₀ + i₁, from the five
    arrays the kernel is launched on (the two gathered feature arrays, the two weight matrices, the output row). -/
def outArr (c : Dev nD) : S8192x128.Idx → EReal := fun i =>
  edge (fun d => (V m c main_v12 : S1048576x64.Idx → EReal) (ix2 (edgeAt i) d))
    (fun d => (V m c main_v19 : S1048576x64.Idx → EReal) (ix2 (edgeAt i) d))
    (V m c main_v20 : S128x256.Idx → EReal) (V m c main_v21 : S128x256.Idx → EReal)
    (fun h => (V m c main_v22 : S1x256.Idx → EReal) (ix2 (0 : Fin 1) h))

/-- Row `r` of the first feature window's block at point `t` is row 4096·t + r of the first gathered array. -/
theorem scope_block (c : Dev nD) (t : Fin cfg0.N) (r : Fin 4096) (d : Fin 64) (e : Fin 1048576) (he : e.val = t.val * 4096 + r.val) :
    (iblk m c 0 t : Vec Ideal S4096x64 .bf16) (ix2 r d) = (V m c main_v12 : S1048576x64.Idx → EReal) (ix2 e d) := by
  obtain ⟨i0, i1, -⟩ := idx_facts t
  show V m c main_v12 (((cfg0.win 0).blk t).view.emb (ix2 r d)) = V m c main_v12 (ix2 e d)
  have h : ((cfg0.win 0).blk t).view.emb (ix2 r d) = ix2 e d := by
    funext a; apply Fin.ext
    match a with
    | ⟨0, _⟩ => show win0_0.index t (0 : Fin 2) * 4096 + 1 * r.val = e.val; omega
    | ⟨1, _⟩ => show win0_0.index t (1 : Fin 2) * 64 + 1 * d.val = d.val; omega
  rw [h]

/-- Row `r` of the second feature window's block at point `t` is row 4096·t + r of the second gathered array. -/
theorem goal_block (c : Dev nD) (t : Fin cfg0.N) (r : Fin 4096) (d : Fin 64) (e : Fin 1048576) (he : e.val = t.val * 4096 + r.val) :
    (iblk m c 1 t : Vec Ideal S4096x64 .bf16) (ix2 r d) = (V m c main_v19 : S1048576x64.Idx → EReal) (ix2 e d) := by
  obtain ⟨-, -, i0, i1, -⟩ := idx_facts t
  show V m c main_v19 (((cfg0.win 1).blk t).view.emb (ix2 r d)) = V m c main_v19 (ix2 e d)
  have h : ((cfg0.win 1).blk t).view.emb (ix2 r d) = ix2 e d := by
    funext a; apply Fin.ext
    match a with
    | ⟨0, _⟩ => show win0_1.index t (0 : Fin 2) * 4096 + 1 * r.val = e.val; omega
    | ⟨1, _⟩ => show win0_1.index t (1 : Fin 2) * 64 + 1 * d.val = d.val; omega
  rw [h]

/-- The gate weights' window holds the whole matrix at every point. -/
theorem gate_block (c : Dev nD) (t : Fin cfg0.N) : (iblk m c 2 t : Vec Ideal S128x256 .bf16) = (V m c main_v20 : S128x256.Idx → EReal) := by
  obtain ⟨-, -, -, -, i0, i1, -⟩ := idx_facts t
  funext y
  show V m c main_v20 (((cfg0.win 2).blk t).view.emb y) = V m c main_v20 y
  have h : ((cfg0.win 2).blk t).view.emb y = y := by
    funext a; apply Fin.ext
    match a with
    | ⟨0, _⟩ => show win0_2.index t (0 : Fin 2) * 128 + 1 * (y 0).val = (y 0).val; omega
    | ⟨1, _⟩ => show win0_2.index t (1 : Fin 2) * 256 + 1 * (y 1).val = (y 1).val; omega
  rw [h]

/-- The value weights' window holds the whole matrix at every point. -/
theorem value_block (c : Dev nD) (t : Fin cfg0.N) : (iblk m c 3 t : Vec Ideal S128x256 .bf16) = (V m c main_v21 : S128x256.Idx → EReal) := by
  obtain ⟨-, -, -, -, -, -, i0, i1, -⟩ := idx_facts t
  funext y
  show V m c main_v21 (((cfg0.win 3).blk t).view.emb y) = V m c main_v21 y
  have h : ((cfg0.win 3).blk t).view.emb y = y := by
    funext a; apply Fin.ext
    match a with
    | ⟨0, _⟩ => show win0_3.index t (0 : Fin 2) * 128 + 1 * (y 0).val = (y 0).val; omega
    | ⟨1, _⟩ => show win0_3.index t (1 : Fin 2) * 256 + 1 * (y 1).val = (y 1).val; omega
  rw [h]

/-- The output row's window holds the whole row at every point. -/
theorem row_block (c : Dev nD) (t : Fin cfg0.N) : (iblk m c 4 t : Vec Ideal S1x256 .f32) = (V m c main_v22 : S1x256.Idx → EReal) := by
  obtain ⟨-, -, -, -, -, -, -, -, i0, i1, -⟩ := idx_facts t
  funext y
  show V m c main_v22 (((cfg0.win 4).blk t).view.emb y) = V m c main_v22 y
  have h : ((cfg0.win 4).blk t).view.emb y = y := by
    funext a; apply Fin.ext
    match a with
    | ⟨0, _⟩ => show win0_4.index t (0 : Fin 2) * 1 + 1 * (y 0).val = (y 0).val; omega
    | ⟨1, _⟩ => show win0_4.index t (1 : Fin 2) * 256 + 1 * (y 1).val = (y 1).val; omega
  rw [h]

/-- WHAT POINT `t` WRITES BACK is block `t` of `outArr`. -/
theorem flushed_eq (c : Dev nD) (t : Fin cfg0.N) :
    (dats m 0 c).flushed 5 t = ((cfg0.win 5).blk t).view.read (Elt Ideal) (outArr m c) := by
  show (cfg0.win 5).cut (grid0.coords t) ((dats m 0 c).after 5 t) = _
  rw [after0_5]
  unfold out0_5
  rw [View.canon_unit_zero hz]
  simp only [View.ld_unit_zero (S := S4096x64) hz, View.ld_unit_zero (S := S128x256) hz, View.ld_unit_zero (S := S1x256) hz]
  obtain ⟨-, -, -, -, -, -, -, -, -, -, i0, i1⟩ := idx_facts t
  funext j
  obtain ⟨p, q, rfl⟩ : ∃ (p : Fin 32) (q : Fin 128), j = ix2 p q := ⟨j 0, j 1, eq_ix2 j⟩
  have hp : p.val < 32 := p.isLt
  have hq : q.val < 128 := q.isLt
  have ht : t.val < 256 := Nat.lt_of_lt_of_eq t.isLt N_0
  show k0_pay1 (iblk m c 0 t) (iblk m c 1 t) (iblk m c 2 t) (iblk m c 3 t) (iblk m c 4 t) (ix2 p q)
    = outArr m c (((cfg0.win 5).blk t).view.emb (ix2 p q))
  refine (Block.block_is_edge (iblk m c 0 t) (iblk m c 1 t) (iblk m c 2 t) (iblk m c 3 t) (iblk m c 4 t) p q
    ⟨p.val * 128 + q.val, by omega⟩ rfl).trans ?_
  have hemb : ((cfg0.win 5).blk t).view.emb (ix2 p q) = ix2 (⟨t.val * 32 + p.val, by omega⟩ : Fin 8192) q := by
    funext a; apply Fin.ext
    match a with
    | ⟨0, _⟩ => show win0_5.index t (0 : Fin 2) * 32 + 1 * p.val = t.val * 32 + p.val; omega
    | ⟨1, _⟩ => show win0_5.index t (1 : Fin 2) * 128 + 1 * q.val = q.val; omega
  rw [hemb]
  unfold outArr
  rw [gate_block m c t, value_block m c t, row_block m c t]
  have he : (edgeAt (ix2 (⟨t.val * 32 + p.val, by omega⟩ : Fin 8192) q)).val = t.val * 4096 + (p.val * 128 + q.val) := by
    show (t.val * 32 + p.val) * 128 + q.val = _
    omega
  have hs : (fun d => (iblk m c 0 t : Vec Ideal S4096x64 .bf16) (ix2 (⟨p.val * 128 + q.val, by omega⟩ : Fin 4096) d))
      = fun d => (V m c main_v12 : S1048576x64.Idx → EReal) (ix2 (edgeAt (ix2 (⟨t.val * 32 + p.val, by omega⟩ : Fin 8192) q)) d) :=
    funext fun d => scope_block m c t _ d _ he
  have hg : (fun d => (iblk m c 1 t : Vec Ideal S4096x64 .bf16) (ix2 (⟨p.val * 128 + q.val, by omega⟩ : Fin 4096) d))
      = fun d => (V m c main_v19 : S1048576x64.Idx → EReal) (ix2 (edgeAt (ix2 (⟨t.val * 32 + p.val, by omega⟩ : Fin 8192) q)) d) :=
    funext fun d => goal_block m c t _ d _ he
  rw [hs, hg]

/-- An index of the [8192, 128] array is in point `t`'s block iff each coordinate is in the block's range on its axis. -/
theorem mem_blk (t : Fin cfg0.N) (i : S8192x128.Idx) :
    i ∈ ((cfg0.win 5).blk t).view.set ↔ ∀ a : Fin 2, win0_5.index t a * S32x128.size a ≤ (i a).val ∧ (i a).val < win0_5.index t a * S32x128.size a + S32x128.size a := by
  show i ∈ ((View.whole main_v23).slice (win0_5.rect t)).set ↔ _
  rw [View.set_slice_whole, Rect.mem_set_unit]
  exact Iff.rfl

/-- The 256 blocks cover the array: row i₀ lies in the block of point i₀ / 32. -/
theorem cover (i : S8192x128.Idx) : ∃ t : Fin cfg0.N, (cfg0.win 5).flush t = true ∧ i ∈ ((cfg0.win 5).blk t).view.set := by
  have hi0 : (i 0).val < 8192 := (i 0).isLt
  have hi1 : (i 1).val < 128 := (i 1).isLt
  have hN : (i 0).val / 32 < cfg0.N := Nat.lt_of_lt_of_eq (by omega : (i 0).val / 32 < 256) N_0.symm
  obtain ⟨-, -, -, -, -, -, -, -, -, -, i0, i1⟩ := idx_facts ⟨(i 0).val / 32, hN⟩
  refine ⟨⟨(i 0).val / 32, hN⟩, flush0_5 _, ?_⟩
  rw [mem_blk]
  intro a
  match a with
  | ⟨0, _⟩ =>
    show win0_5.index ⟨(i 0).val / 32, hN⟩ (0 : Fin 2) * 32 ≤ (i 0).val ∧ (i 0).val < win0_5.index ⟨(i 0).val / 32, hN⟩ (0 : Fin 2) * 32 + 32
    rw [i0]; show (i 0).val / 32 * 32 ≤ (i 0).val ∧ (i 0).val < (i 0).val / 32 * 32 + 32; omega
  | ⟨1, _⟩ =>
    show win0_5.index ⟨(i 0).val / 32, hN⟩ (1 : Fin 2) * 128 ≤ (i 1).val ∧ (i 1).val < win0_5.index ⟨(i 0).val / 32, hN⟩ (1 : Fin 2) * 128 + 128
    rw [i1]; omega

/-- THE OUTPUT WINDOW'S ARRAY after the run is `outArr`. -/
theorem final (c : Dev nD) : (dats m 0 c).arrAt 5 cfg0.N = outArr m c :=
  (dats m 0 c).arrAt_eq_of_cover 5 (outArr m c) (fun t _ => flushed_eq m c t) cover

/-- The output row the kernel is launched on is the transpose of the [256, 1] output weights: its entry (0, h) is their
    entry (h, 0). -/
theorem row_is_column (c : Dev nD) (h : Fin 256) :
    (V m c main_v22 : S1x256.Idx → EReal) (ix2 (0 : Fin 1) h)
      = (m ((c.tc : Thread nD τ).loc main_arg3) : S256x1.Idx → EReal) (ix2 h (0 : Fin 1)) := by
  have e : (V m c main_v22 : S1x256.Idx → EReal)
      = transpose S1x256 [1, 0] (m ((c.tc : Thread nD τ).loc main_arg3) : S256x1.Idx → EReal) transposes_S256x1_S1x256_1_0 := by
    show StableHlo.after hostOps0 (fun b => m (c, b)) (Proc.devRef .tc main_v22) = _
    after_results
  rw [e]
  exact transpose_ix2_apply _ _ (0 : Fin 1) h

/-- THE PROGRAM'S RESULT: after the reshape that follows the kernel, position `e` holds the value of edge `e`. -/
theorem tail_value (c : Dev nD) :
    Pipeline.afterTail₀ cfgs (dats m) 0 (V0 m) [hostOps1] c main_v24
      = result (V m c main_v12 : S1048576x64.Idx → EReal) (V m c main_v19 : S1048576x64.Idx → EReal)
          (V m c main_v20 : S128x256.Idx → EReal) (V m c main_v21 : S128x256.Idx → EReal)
          (m ((c.tc : Thread nD τ).loc main_arg3) : S256x1.Idx → EReal) := by
  unfold Pipeline.afterTail₀
  show StableHlo.after hostOps1 _ (Proc.devRef .tc main_v24) = _
  after_results
  have hw : Pipeline.withArrays (cfgs 0).spec c (V0 m c) (fun w => (dats m 0 c).arrAt w (cfgs 0).N) (Proc.devRef .tc main_v23)
      = outArr m c :=
    (Pipeline.withArrays_arr spec0 launch0.win.arr_inj c _ _ 5).trans (final m c)
  funext i
  obtain ⟨e, rfl⟩ : ∃ e : Fin 1048576, i = ix1 e := ⟨i 0, eq_ix1 i⟩
  have he : e.val < 1048576 := e.isLt
  rw [result_apply]
  show shapeCast S1048576 (Pipeline.withArrays (cfgs 0).spec c (V0 m c) (fun w => (dats m 0 c).arrAt w (cfgs 0).N)
      (Proc.devRef .tc main_v23)) shapeCasts_S8192x128_S1048576 (ix1 e) = _
  rw [hw]
  refine (shapeCast_apply (outArr m c) shapeCasts_S8192x128_S1048576 (ix1 e)
    (ix2 (⟨e.val / 128, by omega⟩ : Fin 8192) (⟨e.val % 128, by omega⟩ : Fin 128)) ?_).trans ?_
  · rw [Shape.rowMajor_val_two, Shape.rowMajor_val_one]
    show e.val / 128 * 128 + e.val % 128 = e.val
    omega
  have hE : edgeAt (ix2 (⟨e.val / 128, by omega⟩ : Fin 8192) (⟨e.val % 128, by omega⟩ : Fin 128)) = e :=
    Fin.ext (by show e.val / 128 * 128 + e.val % 128 = e.val; omega)
  unfold outArr edge
  rw [hE]
  refine Finset.sum_congr rfl fun h _ => ?_
  exact congrArg₂ (· * ·) rfl (row_is_column m c h)

/-- THE RUN, READ: every weakly fair execution of the program ends with the result at the edge function of the five
    arrays the kernel is launched on, and the arguments as they were. -/
theorem run : θ_run defs (onTc (τ := τ) (main (F := Ideal))) ⟨m, fun _ => 0, ρ⟩ fun r => ∀ c : Dev nD,
      r.2.mem ((c.tc : Thread nD τ).loc main_v24)
        = result (V m c main_v12 : S1048576x64.Idx → EReal) (V m c main_v19 : S1048576x64.Idx → EReal)
            (V m c main_v20 : S128x256.Idx → EReal) (V m c main_v21 : S128x256.Idx → EReal)
            (m ((c.tc : Thread nD τ).loc main_arg3) : S256x1.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v24 (Pipeline.mem_restRefs_of main_v24 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Whole

end
-- ==== Proof.HostPrefix.lean ====
/-
  The arrays the kernel is launched on, as functions of the program's arguments.

  Before the kernel, the program flattens the [64, 1024, 64] features to [65536, 64], takes the two rows of the edge
  index, wraps negative ids by adding 65536, gathers one feature row per edge for each endpoint, and passes the weights on.
  Every change of float format on the way is the identity on extended reals, so the two gathered arrays are exactly the
  reference's two gathers (the same wrap, the same gather of the same flattened features) and the weight windows' arrays are
  the weight arguments themselves.
-/
import proofs.«125751_j19799799234919_2_alg».proof.Proof.Gen.KernelIdeal.Frame
import proofs.«125751_j19799799234919_2_alg».proof.Proof.Gen.ReferenceIdeal.Read
import Idealize.ShloMosaic.Lib.StableHlo.Run

set_option maxRecDepth 16384

noncomputable section

namespace Cert.KernelIdeal.Prefix

open Cert.KernelIdeal Cert.KernelIdeal.Gen Idealize.ShloMosaic Idealize.ShloMosaic.TcCoe Idealize.SL.Sem

variable (m : (ℓ : Loc nD τ sig) → Buf (Elt Ideal) ℓ)

/-- The first gathered array is the reference's first gather of the same arguments. -/
theorem scope_is (c : Dev nD) :
    (V m c main_v12 : S1048576x64.Idx → EReal)
      = Cert.ReferenceIdeal.Read.val_main_v11 (F := Ideal) (m ((c.tc : Thread nD τ).loc main_arg0)) (m ((c.tc : Thread nD τ).loc main_arg4)) := by
  show StableHlo.after hostOps0 (fun b => m (c, b)) (Proc.devRef .tc main_v12) = _
  after_results
  rfl

/-- The second gathered array is the reference's second gather of the same arguments. -/
theorem goal_is (c : Dev nD) :
    (V m c main_v19 : S1048576x64.Idx → EReal)
      = Cert.ReferenceIdeal.Read.val_main_v18 (F := Ideal) (m ((c.tc : Thread nD τ).loc main_arg0)) (m ((c.tc : Thread nD τ).loc main_arg4)) := by
  show StableHlo.after hostOps0 (fun b => m (c, b)) (Proc.devRef .tc main_v19) = _
  after_results
  rfl

/-- The gate weights the kernel is launched on are the gate-weight argument. -/
theorem gate_is (c : Dev nD) :
    (V m c main_v20 : S128x256.Idx → EReal) = (m ((c.tc : Thread nD τ).loc main_arg1) : S128x256.Idx → EReal) := by
  show StableHlo.after hostOps0 (fun b => m (c, b)) (Proc.devRef .tc main_v20) = _
  after_results
  rfl

/-- The value weights the kernel is launched on are the value-weight argument. -/
theorem value_is (c : Dev nD) :
    (V m c main_v21 : S128x256.Idx → EReal) = (m ((c.tc : Thread nD τ).loc main_arg2) : S128x256.Idx → EReal) := by
  show StableHlo.after hostOps0 (fun b => m (c, b)) (Proc.devRef .tc main_v21) = _
  after_results
  rfl

end Cert.KernelIdeal.Prefix

end
-- ==== Proof.lean ====
/-
  A gated two-layer perceptron over the edges of a graph, kernel against reference, on the extended reals.

  Both programs take node features [64, 1024, 64] (flattened to 65536 rows of 64), gate and value weights [128, 256],
  output weights [256, 1] and an edge index [2, 1048576]. For each edge they gather the feature rows of its two endpoints
  (a negative id wrapped by adding 65536, in both programs alike), lay the two rows side by side as one row of 128 lanes,
  contract it against the gate and the value weights, form `g · logistic g · u` per hidden unit, and contract the 256
  hidden units against the output weights.

  The kernel program does the gathers on the host and the rest in a kernel over 256 blocks of 4096 edges, writing
  the values 128 to a row and reshaping at the end; it spells the logistic as one operation, sums each row's lanes where
  the reference contracts against a [256, 1] matrix, and passes the features and weights through a change of float format
  that is the identity on extended reals. The reference does everything on the host and spells the logistic as
  `1 / (1 + e^(-g))`. Read index by index both results are `EdgeMlp.result` of the same two gathered arrays and the same
  weights (`KernelIdeal.Whole.run` with `KernelIdeal.Prefix`, and `ReferenceIdeal.RefValue.reference_is_edgeMlp`): the same
  sums of the same products, so the precondition is never opened.

  The three frames are the generated ones (the reference's is its generated run with the result dropped); the ideal pass
  rewrote nothing, so `preserves` is trivial.
-/
import proofs.«125751_j19799799234919_2_alg».proof.Defs
import proofs.«125751_j19799799234919_2_alg».proof.Proof.Gen.Kernel
import proofs.«125751_j19799799234919_2_alg».proof.Proof.Gen.Kernel.Skeleton
import proofs.«125751_j19799799234919_2_alg».proof.Proof.Gen.Kernel.Launch
import proofs.«125751_j19799799234919_2_alg».proof.Proof.Gen.Kernel.Points
import proofs.«125751_j19799799234919_2_alg».proof.Proof.Gen.Kernel.Frame
import proofs.«125751_j19799799234919_2_alg».proof.Proof.Gen.KernelIdeal
import proofs.«125751_j19799799234919_2_alg».proof.Proof.Gen.KernelIdeal.Skeleton
import proofs.«125751_j19799799234919_2_alg».proof.Proof.Gen.KernelIdeal.Launch
import proofs.«125751_j19799799234919_2_alg».proof.Proof.Gen.KernelIdeal.Points
import proofs.«125751_j19799799234919_2_alg».proof.Proof.Gen.KernelIdeal.Frame
import proofs.«125751_j19799799234919_2_alg».proof.Proof.Gen.ReferenceIdeal
import proofs.«125751_j19799799234919_2_alg».proof.Proof.Gen.ReferenceIdeal.Run
import proofs.«125751_j19799799234919_2_alg».proof.Proof.Gen.ReferenceIdeal.Read
import proofs.«125751_j19799799234919_2_alg».proof.Proof.Gen.Pre_finite_inputs
import proofs.«125751_j19799799234919_2_alg».proof.Proof.EdgeMlp
import proofs.«125751_j19799799234919_2_alg».proof.Proof.ReferenceValue
import proofs.«125751_j19799799234919_2_alg».proof.Proof.KernelBlock
import proofs.«125751_j19799799234919_2_alg».proof.Proof.KernelArray
import proofs.«125751_j19799799234919_2_alg».proof.Proof.HostPrefix
import Idealize.ShloMosaic.Adequacy
import Idealize.ShloMosaic.Init

noncomputable section

namespace Cert.Proof

open Idealize.ShloMosaic Idealize.SL.Sem

/-- The word-level kernel program runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- And the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization is the program's own text read on the extended reals: nothing was rewritten. -/
theorem preserves : Cert.preserves_Kernel_KernelIdeal := trivial

/-- From memories agreeing on the arguments both programs end with the edge function of the same two gathered arrays and
    the same weights: the kernel's launch arrays are the reference's gathers and the weight arguments themselves. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [Cert.ReferenceIdeal.Read.val_main_v25_eq, Cert.ReferenceIdeal.RefValue.reference_is_edgeMlp, a0, a1, a2, a3, a4,
    Cert.KernelIdeal.Prefix.scope_is, Cert.KernelIdeal.Prefix.goal_is, Cert.KernelIdeal.Prefix.gate_is,
    Cert.KernelIdeal.Prefix.value_is]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
